-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 26
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S8192x4096, .bf16⟩
  | .hbm, ⟨25, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_cst_2 : Ref sig .tc := ⟨.hbm, 16, rfl⟩
abbrev main_call3_v0 : Ref sig .tc := ⟨.hbm, 17, rfl⟩
abbrev main_call3_v1 : Ref sig .tc := ⟨.hbm, 18, rfl⟩
abbrev main_call3_v2 : Ref sig .tc := ⟨.hbm, 19, rfl⟩
abbrev main_call3_v3 : Ref sig .tc := ⟨.hbm, 20, rfl⟩
abbrev main_call3_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_cst_2 : Ref sig .tc := ⟨.hbm, 15, rfl⟩
abbrev main_call3_v0 : Ref sig .tc := ⟨.hbm, 16, rfl⟩
abbrev main_call3_v1 : Ref sig .tc := ⟨.hbm, 17, rfl⟩
abbrev main_call3_v2 : Ref sig .tc := ⟨.hbm, 18, rfl⟩
abbrev main_call3_v3 : Ref sig .tc := ⟨.hbm, 19, rfl⟩
abbrev main_call3_v4 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each of the body's three control cases leaves behind, as the body's own arithmetic of what it loaded.

  The accumulator block (a scratch of 1024 x 2048 entries carried from one grid point to the next) is stored whole
  by every case:  at the first point of a run along the contracted axis it is zeroed and the point's partial product
  is added to the zeros; at every later point the point's partial product is added to what the point before left.
  At the last point of a run the output block is stored whole as well: the accumulator just stored, plus the bias row.
  Each store covers its whole block, so the block's contents afterwards are the stored value itself.
-/
import proofs.«117394_j33818572489121_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-block store or load. -/
theorem zero_offsets : (![0, 0] : Fin 2 → ℕ) = fun _ => 0 := funext fun a => by fin_cases a <;> rfl

/-- First point of a run: the accumulator ends at the point's partial product added to the zero block. -/
theorem acc_first (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .bf16) (x1 : Vec F S2048x512 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) zero_offsets]
  simp only [View.readCov_unit_zero (S := S1024x2048) arg7.view zero_offsets, View.readAt_eq_ld, harg3.read_unread, harg4.read_unread,
    View.ld_unit_zero (S := S1024x512) zero_offsets, View.ld_unit_zero (S := S2048x512) zero_offsets]

/-- A middle point of a run: the accumulator ends at the point's partial product added to what it held. -/
theorem acc_middle (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg7.read_unread, harg3.read_unread, harg4.read_unread,
    View.ld_unit_zero (S := S1024x2048) zero_offsets, View.ld_unit_zero (S := S1024x512) zero_offsets,
    View.ld_unit_zero (S := S2048x512) zero_offsets]

/-- Last point of a run: the accumulator likewise, -/
theorem acc_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zero_offsets]
  simp only [View.readAt_eq_ld, harg7.read_unread, harg3.read_unread, harg4.read_unread,
    View.ld_unit_zero (S := S1024x2048) zero_offsets, View.ld_unit_zero (S := S1024x512) zero_offsets,
    View.ld_unit_zero (S := S2048x512) zero_offsets]

/-- and the output block is that accumulator plus the bias row. -/
theorem out_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) zero_offsets]
  simp only [View.readCov_unit_zero (S := S1024x2048) arg7.view zero_offsets, View.readAt_eq_ld, harg7.read_unread, harg3.read_unread,
    harg4.read_unread, harg5.read_unread, View.ld_unit_zero (S := S1024x2048) zero_offsets,
    View.ld_unit_zero (S := S1024x512) zero_offsets, View.ld_unit_zero (S := S2048x512) zero_offsets,
    View.ld_unit_zero (S := S1x2048) zero_offsets]

end Cert.KernelIdeal.Pieces

end
-- ==== Proof.LibTransposedDot.lean ====
/-
  A matrix product with the right operand transposed, read at an index (program-independent; imports only the library).

  For the dimension numbers of the product of an `[M, K]` matrix by the TRANSPOSE of an `[N, K]` matrix — each
  operand's second axis contracted, no batch axis — the contraction index is one coordinate `k : Fin K`, the left
  operand is read at `(r, k)` and the right one at `(j, k)`. So at the ideal values both the kernel's matrix product
  into a zero accumulator and the host's general product are, at `(r, j)`, the sum over `k` of the products of the
  entries `(r, k)` and `(j, k)`: the inner product of row `r` of the left operand with row `j` of the right one.
-/
import Idealize.ShloMosaic.Lib.ValueIdx
import Idealize.ShloMosaic.PureOps.Ideal.Laws

noncomputable section

namespace Cert.TransposedDot

open Idealize.ShloMosaic Idealize.ShloMosaic.ValueIdx

/-- The contraction index of such a product is its one coordinate. -/
abbrev contrFin (M K N : ℕ) : (DotDims.transposedRhs M K N).contr.Idx ≃ Fin K :=
  contrEquiv1 (DotDims.transposedRhs M K N) K rfl rfl

/-- At output `(r, j)` and contraction coordinate `k` the left operand is read at `(r, k)`. -/
theorem lhsIdx_transposedRhs (M K N : ℕ) (r : Fin M) (j : Fin N) (k : Fin K) :
    (DotDims.transposedRhs M K N).lhsIdx (ix2 r j) ((contrFin M K N).symm k) = ix2 r k := by
  funext a; apply Fin.ext
  match a with
  | ⟨0, _⟩ => rfl
  | ⟨1, _⟩ =>
    refine ((DotDims.transposedRhs M K N).lhsIdx_val_of_single (cl := (1 : Fin 2)) rfl (ix2 r j) _).trans ?_
    exact contrEquiv1_symm_val (DotDims.transposedRhs M K N) K rfl rfl k

/-- At output `(r, j)` and contraction coordinate `k` the right operand is read at `(j, k)`. -/
theorem rhsIdx_transposedRhs (M K N : ℕ) (r : Fin M) (j : Fin N) (k : Fin K) :
    (DotDims.transposedRhs M K N).rhsIdx (ix2 r j) ((contrFin M K N).symm k) = ix2 j k := by
  funext a; apply Fin.ext
  match a with
  | ⟨0, _⟩ => rfl
  | ⟨1, _⟩ =>
    refine ((DotDims.transposedRhs M K N).rhsIdx_val_of_single (cr := (1 : Fin 2)) rfl (ix2 r j) _).trans ?_
    exact contrEquiv1_symm_val (DotDims.transposedRhs M K N) K rfl rfl k

/-- The contraction's sum of such a product at `(r, j)`, over the coordinate `k`. -/
theorem sum_transposedRhs {M K N : ℕ} (L : (⟨2, ![M, K]⟩ : Shape).Idx → EReal) (R : (⟨2, ![N, K]⟩ : Shape).Idx → EReal)
    (r : Fin M) (j : Fin N) :
    (∑ q : (DotDims.transposedRhs M K N).contr.Idx,
        L ((DotDims.transposedRhs M K N).lhsIdx (ix2 r j) q) * R ((DotDims.transposedRhs M K N).rhsIdx (ix2 r j) q))
      = ∑ k : Fin K, L (ix2 r k) * R (ix2 j k) := by
  rw [← Equiv.sum_comp (contrFin M K N).symm]
  exact Finset.sum_congr rfl fun k _ => by rw [lhsIdx_transposedRhs, rhsIdx_transposedRhs]

/-- At the ideal values the kernel's matrix product into the zero accumulator, read at `(r, j)`. -/
theorem matmul_transposedRhs_apply {M K N : ℕ} {φ₁ φ₂ : FTy} (prec : Option ContractPrecision)
    (lhs : FVec Ideal ⟨2, ![M, K]⟩ φ₁) (rhs : FVec Ideal ⟨2, ![N, K]⟩ φ₂) (r : Fin M) (j : Fin N) :
    FloatOps.matmul (DotDims.transposedRhs M K N) prec lhs rhs (constant ⟨2, ![M, N]⟩ .f32 0x00000000#32) (ix2 r j)
      = ∑ k : Fin K, lhs (ix2 r k) * rhs (ix2 j k) :=
  (Ideal.matmul_constant_zero_apply _ prec lhs rhs (ix2 r j)).trans (sum_transposedRhs lhs rhs r j)

/-- At the ideal values the host's general product, read at `(r, j)`. -/
theorem dotGeneral_transposedRhs_apply {M K N : ℕ} {φ₁ φ₂ : FTy} (prec : Option ContractPrecision) (sched : HostSchedule)
    (lhs : FVec Ideal ⟨2, ![M, K]⟩ φ₁) (rhs : FVec Ideal ⟨2, ![N, K]⟩ φ₂) (r : Fin M) (j : Fin N) :
    FloatOps.dotGeneral (DotDims.transposedRhs M K N) prec sched lhs rhs (ix2 r j)
      = ∑ k : Fin K, lhs (ix2 r k) * rhs (ix2 j k) :=
  (Ideal.dotGeneral_apply _ prec sched lhs rhs (ix2 r j)).trans (sum_transposedRhs lhs rhs r j)

end Cert.TransposedDot

end
-- ==== Proof.Payload.lean ====
/-
  The body's three stored values, read at one entry, at the ideal values.

  * The zero block is 0 at every entry.
  * The accumulate step: entry (p, p') of the new accumulator is the old entry plus the inner product, over the
    512 positions q of the point's slice of the contracted axis, of row p of the activations block with row p' of
    the weights block (the weights enter transposed: both operands are contracted along their second axis).
  * The final step: entry (p, p') of the output block is the accumulator's entry plus the bias row's entry p'.
-/
import proofs.«117394_j33818572489121_2_alg».proof.Proof.Gen.KernelIdeal.Skeleton
import proofs.«117394_j33818572489121_2_alg».proof.Proof.LibTransposedDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The body's product contracts the second axis of both operands: a [1024, 512] block times the transpose of a
    [2048, 512] block. -/
theorem dims_eq : dot_S1024x512_S2048x512_S1024x2048_1_1_0_0_n_n = DotDims.transposedRhs 1024 512 2048 := rfl

/-- The zero block. -/
theorem zero_block_apply (p : Fin 1024) (p' : Fin 2048) : k0_pay1 (F := Ideal) (ix2 p p') = 0 := by
  unfold k0_pay1
  rw [shapeCast_self]
  exact Ideal.ofBits_zero_f32

/-- One accumulate step at an entry. -/
theorem accumulate_apply (acc : Vec Ideal S1024x2048 .f32) (x0 : Vec Ideal S1024x512 .bf16) (x1 : Vec Ideal S2048x512 .bf16)
    (p : Fin 1024) (p' : Fin 2048) :
    k0_pay2 (F := Ideal) acc x0 x1 (ix2 p p') = acc (ix2 p p') + ∑ q : Fin 512, x0 (ix2 p q) * x1 (ix2 p' q) := by
  unfold k0_pay2
  simp only [shapeCast_self]
  refine congrArg (acc (ix2 p p') + ·) ?_
  rw [dims_eq]
  exact Cert.TransposedDot.matmul_transposedRhs_apply none x0 x1 p p'

/-- The bias row added to the accumulator at an entry. -/
theorem add_bias_apply (acc : Vec Ideal S1024x2048 .f32) (b : Vec Ideal S1x2048 .f32) (p : Fin 1024) (p' : Fin 2048) :
    k0_pay3 (F := Ideal) acc b (ix2 p p') = acc (ix2 p p') + b (ix2 (0 : Fin 1) p') := by
  unfold k0_pay3
  simp only [shapeCast_self]
  refine congrArg (acc (ix2 p p') + ·) ?_
  exact broadcastTo_1b_ab_apply b _ p p'

end Cert.KernelIdeal.Payload

end
-- ==== Proof.Fold.lean ====
/-
  The accumulator after any grid point, as a sum of partial products.

  Along the last grid axis the points come in runs of eight: the run of output block (i, j) is points 8 u .. 8 u + 7
  with u = 2 i + j. The first point of a run stores 0 + (its partial product) in the accumulator, every later point
  adds its partial product to what the point before left. So after point t the accumulator's entry (p, p') is
  0 plus the sum, over the points 8 (t / 8) .. t of t's run, of each point's partial product at (p, p'): the inner
  product over the 512 positions of that point's slice of row p of its activations block with row p' of its weights
  block.
-/
import proofs.«117394_j33818572489121_2_alg».proof.Proof.Gen.KernelIdeal.Value
import proofs.«117394_j33818572489121_2_alg».proof.Proof.Pieces
import proofs.«117394_j33818572489121_2_alg».proof.Proof.Payload

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The point's three input blocks, as arrays of extended reals. -/
abbrev actBlock (c : Dev nD) (t : Fin cfg0.N) : (⟨2, ![1024, 512]⟩ : Shape).Idx → EReal := iblk m c 0 t
abbrev wgtBlock (c : Dev nD) (t : Fin cfg0.N) : (⟨2, ![2048, 512]⟩ : Shape).Idx → EReal := iblk m c 1 t
abbrev biasBlock (c : Dev nD) (t : Fin cfg0.N) : (⟨2, ![1, 2048]⟩ : Shape).Idx → EReal := iblk m c 2 t

/-- The partial product grid point n contributes at entry i of the accumulator (0 for an n beyond the grid, where
    nothing is ever asked of it). -/
def addend (c : Dev nD) (n : ℕ) (i : S1024x2048.Idx) : EReal :=
  if h : n < cfg0.N then
    ∑ q : Fin 512, actBlock m c ⟨n, h⟩ (ix2 (i 0) q) * wgtBlock m c ⟨n, h⟩ (ix2 (i 1) q)
  else 0

theorem addend_of_lt (c : Dev nD) (n : ℕ) (h : n < cfg0.N) (p : Fin 1024) (p' : Fin 2048) :
    addend m c n (ix2 p p')
      = ∑ q : Fin 512, actBlock m c ⟨n, h⟩ (ix2 p q) * wgtBlock m c ⟨n, h⟩ (ix2 p' q) := by
  unfold addend
  rw [dif_pos h]

/-- The first point of a run leaves 0 plus its partial product. -/
theorem first_point (c : Dev nD) (n : ℕ) (h : n < cfg0.N) (h0 : n % 8 = 0) (i : S1024x2048.Idx) :
    Value.scAt0_0 m c n h (VS0_0.read (Elt Ideal) VS0_0.junk) i = 0 + addend m c n i := by
  have h1 : ¬n % 8 = 7 := by omega
  obtain ⟨p, p', rfl⟩ : ∃ (p : Fin 1024) (p' : Fin 2048), i = ix2 p p' := ⟨i 0, i 1, eq_ix2 i⟩
  unfold Value.scAt0_0
  rw [dif_pos h0, dif_neg h1]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N))) (ix2 p p')).trans ?_
  refine (Payload.accumulate_apply (k0_pay1 (F := Ideal)) (iblk m c 0 (⟨n, h⟩ : Fin cfg0.N)) (iblk m c 1 (⟨n, h⟩ : Fin cfg0.N)) p p').trans ?_
  rw [Payload.zero_block_apply, addend_of_lt m c n h]

/-- Every later point of a run adds its partial product to what it found. -/
theorem later_point (c : Dev nD) (n : ℕ) (h : n < cfg0.N) (h0 : ¬n % 8 = 0) (acc : Vec Ideal S1024x2048 .f32) (i : S1024x2048.Idx) :
    Value.scAt0_0 m c n h acc i = acc i + addend m c n i := by
  obtain ⟨p, p', rfl⟩ : ∃ (p : Fin 1024) (p' : Fin 2048), i = ix2 p p' := ⟨i 0, i 1, eq_ix2 i⟩
  unfold Value.scAt0_0
  rw [dif_neg h0]
  by_cases h1 : n % 8 = 7
  · rw [dif_pos h1]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc) (ix2 p p')).trans ?_
    refine (Payload.accumulate_apply acc (iblk m c 0 (⟨n, h⟩ : Fin cfg0.N)) (iblk m c 1 (⟨n, h⟩ : Fin cfg0.N)) p p').trans ?_
    rw [addend_of_lt m c n h]
  · rw [dif_neg h1]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc) (ix2 p p')).trans ?_
    refine (Payload.accumulate_apply acc (iblk m c 0 (⟨n, h⟩ : Fin cfg0.N)) (iblk m c 1 (⟨n, h⟩ : Fin cfg0.N)) p p').trans ?_
    rw [addend_of_lt m c n h]

/-- The accumulator after point t: 0 plus the partial products of the points of t's run up to t. -/
theorem accumulator_after (c : Dev nD) (t : Fin cfg0.N) (i : S1024x2048.Idx) :
    (outsAt0 m c t.val t.isLt).2 i = 0 + ∑ s ∈ Finset.range (t.val % 8 + 1), addend m c (8 * (t.val / 8) + s) i := by
  rw [Value.soutsAt0_0_eq m c t]
  exact Pipeline.accAt_add_apply (ι := S1024x2048.Idx) (β := EReal)
    (fun n h => Value.scAt0_0 m c n h (VS0_0.read (Elt Ideal) VS0_0.junk)) (Value.scAt0_0 m c) (fun _ => 0) (addend m c)
    (8 * (t.val / 8)) 7
    (fun h i => first_point m c _ h (by omega) i)
    (fun n h acc i h1 h2 => later_point m c n h (by omega) acc i)
    (t.val % 8) (by omega) _ i

/-- At the last point of a run the output block is the accumulator just stored plus the bias row. -/
theorem output_at_last (c : Dev nD) (t : Fin cfg0.N) (h7 : t.val % 8 = 7) (p : Fin 1024) (p' : Fin 2048) :
    (outsAt0 m c t.val t.isLt).1 (ix2 p p')
      = (outsAt0 m c t.val t.isLt).2 (ix2 p p') + biasBlock m c t (ix2 (0 : Fin 1) p') := by
  have h0 : ¬t.val % 8 = 0 := by omega
  rw [outsAt0_C m c t h0 h7]
  dsimp only
  obtain ⟨n, h⟩ := t
  refine (congrFun (Pieces.out_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) _) (ix2 p p')).trans ?_
  refine (Payload.add_bias_apply _ (iblk m c 2 (⟨n, h⟩ : Fin cfg0.N)) p p').trans ?_
  refine congrArg (· + biasBlock m c (⟨n, h⟩ : Fin cfg0.N) (ix2 (0 : Fin 1) p')) ?_
  exact (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) _) (ix2 p p')).symm

end Cert.KernelIdeal.Fold

end
-- ==== Proof.Blocks.lean ====
/-
  Where the entries of a grid point's blocks sit in the staged arrays.

  The grid has 8 x 2 x 8 = 128 points; point t has coordinates (i, j, k) = (t / 16, t / 8 mod 2, t mod 8), the last
  one running fastest: k walks the eight 512-wide slices of the contracted axis while (i, j) names the output block.
  At point t
    * the activations block is rows 1024 i .. 1024 i + 1023 and columns 512 k .. 512 k + 511 of the activations,
    * the weights block is rows 2048 j .. 2048 j + 2047 and columns 512 k .. 512 k + 511 of the (ternary) weights,
    * the bias block is columns 2048 j .. 2048 j + 2047 of the bias row,
    * the output block is rows 1024 i .. and columns 2048 j .. of the result.
-/
import proofs.«117394_j33818572489121_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The four windows' block indices at point t, decided once over the grid. -/
theorem block_indices : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- Entry (p, q) of the activations block at point t is entry (1024 i + p, 512 k + q) of the staged activations. -/
theorem activations_block (c : Dev nD) (t : Fin cfg0.N) (p : Fin 1024) (q : Fin 512) (r : Fin 8192) (k : Fin 4096)
    (hr : r.val = 1024 * (t.val / 16) + p.val) (hk : k.val = 512 * (t.val % 8) + q.val) :
    (iblk m c 0 t : Vec F S1024x512 .bf16) (ix2 p q) = (V m c main_v7 : S8192x4096.Idx → Elt F .bf16) (ix2 r k) := by
  obtain ⟨e0, e1, -⟩ := block_indices t
  unfold iblk
  rw [View.read_apply]
  show V m c main_v7 _ = V m c main_v7 _
  refine congrArg (V m c main_v7) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * q.val = k.val; rw [e1, hk]; omega

/-- Entry (p', q) of the weights block at point t is entry (2048 j + p', 512 k + q) of the staged weights. -/
theorem weights_block (c : Dev nD) (t : Fin cfg0.N) (p' : Fin 2048) (q : Fin 512) (o : Fin 4096) (k : Fin 4096)
    (ho : o.val = 2048 * (t.val / 8 % 2) + p'.val) (hk : k.val = 512 * (t.val % 8) + q.val) :
    (iblk m c 1 t : Vec F S2048x512 .bf16) (ix2 p' q) = (V m c main_v3 : S4096x4096.Idx → Elt F .bf16) (ix2 o k) := by
  obtain ⟨-, -, e0, e1, -⟩ := block_indices t
  unfold iblk
  rw [View.read_apply]
  show V m c main_v3 _ = V m c main_v3 _
  refine congrArg (V m c main_v3) (funext fun a => Fin.ext ?_)
  match a with
  | ⟨0, _⟩ => show win0_1.index t (0 : Fin 2) * 2048 + 1 * p'.val = o.val; rw [e0, ho]; omega
  | ⟨1, _⟩ => show win0_1.index t (1 : Fin 2) * 512 + 1 * q.val = k.val; rw [e1, hk]; omega

/-- Entry (0, p') of the bias block at point t is entry (0, 2048 j + p') of the staged bias row. -/
theorem bias_block (c : Dev nD) (t : Fin cfg0.N) (p' : Fin 2048) (o : Fin 4096)
    (ho : o.val = 2048 * (t.val / 8 % 2) + p'.val) :
    (iblk m c 2 t : Vec F S1x2048 .f32) (ix2 (0 : Fin 1) p') = (V m c main_v6 : S1x4096.Idx → Elt F .f32) (ix2 (0 : Fin 1) o) := by
  obtain ⟨-, -, -, -, e0, e1, -⟩ := block_indices t
  unfold iblk
  rw [View.read_apply]
  show V m c main_v6 _ = V m c main_v6 _
  refine congrArg (V m c main_v6) (funext fun a => Fin.ext ?_)
  match a with
  | ⟨0, _⟩ => show win0_2.index t (0 : Fin 2) * 1 + 1 * 0 = 0; rw [e0]
  | ⟨1, _⟩ => show win0_2.index t (1 : Fin 2) * 2048 + 1 * p'.val = o.val; rw [e1, ho]; omega

end Cert.KernelIdeal.Blocks

end
-- ==== Proof.TernaryLinear.lean ====
/-
  The function both programs compute, at the ideal values: a linear layer with hard-ternary weights.

  Entrywise, a weight w is replaced by  min(1, max(-1, sign(round w)))  (round to nearest, ties to even; the result
  is -1, 0 or 1 for a finite w), and a bias b by  min(8, max(-8, round b)).  For activations x of shape [8192, 4096],
  weights w of shape [4096, 4096] (row o holds output feature o's weights) and a bias of shape [4096], the result at
  (n, o) is

      sum over k < 4096 of  x(n, k) * ternary(w(o, k))   +   clipped(b(o)).

  The four literals are kept as their bit patterns (1.0, -1.0, 8.0, -8.0 in binary32): they are the same words in
  both programs and are never evaluated.
-/
import Idealize.ShloMosaic.PureOps.Ideal
import Idealize.ShloMosaic.Lib.ValueIdx

noncomputable section

namespace Cert.TernaryLinear

open Idealize.ShloMosaic Idealize.ShloMosaic.ValueIdx

/-- A weight entry, made ternary: rounded, its sign taken, clipped to [-1, 1]. -/
def ternary (w : EReal) : EReal :=
  FloatOps.minimumf (F := Ideal) (FloatOps.ofBits (F := Ideal) .f32 0x3F800000#32)
    (FloatOps.maximumf (F := Ideal) (FloatOps.ofBits (F := Ideal) .f32 0xBF800000#32)
      (FloatOps.hostUnary (F := Ideal) (φ := .f32) .sign (FloatOps.hostUnary (F := Ideal) (φ := .f32) .roundeven w)))

/-- A bias entry, rounded and clipped to [-8, 8]. -/
def clipped (b : EReal) : EReal :=
  FloatOps.minimumf (F := Ideal) (FloatOps.ofBits (F := Ideal) .f32 0x41000000#32)
    (FloatOps.maximumf (F := Ideal) (FloatOps.ofBits (F := Ideal) .f32 0xC1000000#32)
      (FloatOps.hostUnary (F := Ideal) (φ := .f32) .roundeven b))

/-- The layer's result: entry (n, o) is the inner product of row n of the activations with the ternary row o of the
    weights, plus the clipped bias of feature o. -/
def linear (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * ternary (w (ix2 (i 1) k))) + clipped (b (ix1 (i 1)))

end Cert.TernaryLinear

end
-- ==== Proof.Entry.lean ====
/-
  What the kernel's three staged arrays hold when the region is entered.

  Before the launch the host part of the program prepares the operands: the activations are converted to bfloat16
  (no change at the ideal values), the weights are made ternary entry by entry and converted likewise, and the bias is
  rounded, clipped and laid out as one row [1, 4096].
-/
import proofs.«117394_j33818572489121_2_alg».proof.Proof.Gen.KernelIdeal.Frame
import proofs.«117394_j33818572489121_2_alg».proof.Proof.TernaryLinear
import Idealize.ShloMosaic.Lib.StableHlo.Run
import Idealize.ShloMosaic.Lib.ValueIdx
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo Idealize.ShloMosaic.ValueIdx
open Cert.TernaryLinear

variable (m : (ℓ : Loc nD τ sig) → Buf (Elt Ideal) ℓ)

/-- The staged activations are the activations argument. -/
theorem activations (c : Dev nD) : (V m c main_v7 : S8192x4096.Idx → EReal) = m ((c : Thread nD τ).loc main_arg0) := by
  dsimp only [V]
  simp only [hostOps0, hostOps0_1, hostOps0_2, hostOps0_3, hostOps0_4, hostOps0_5, hostOps0_6, hostOps0_7, List.flatten_cons, List.flatten_nil, List.append_nil, List.cons_append, List.nil_append]
  after_results
  rfl

/-- The staged weights are the weights argument made ternary, entry by entry. -/
theorem weights (c : Dev nD) (j : S4096x4096.Idx) :
    (V m c main_v3 : S4096x4096.Idx → EReal) j = ternary (m ((c : Thread nD τ).loc main_arg1) j) := by
  have e : (V m c main_v3 : S4096x4096.Idx → EReal)
      = truncf .bf16 (minimumf (broadcastInDim S4096x4096 ![] bcast_S_S4096x4096 (id (constant (F := Ideal) S_ .f32 0x3F800000#32)))
          (maximumf (broadcastInDim S4096x4096 ![] bcast_S_S4096x4096 (id (constant (F := Ideal) S_ .f32 0xBF800000#32)))
            (Host.sign (Host.roundeven (m ((c : Thread nD τ).loc main_arg1)))))) bitsLt_bf16_f32 := by
    dsimp only [V]
    simp only [hostOps0, hostOps0_1, hostOps0_2, hostOps0_3, hostOps0_4, hostOps0_5, hostOps0_6, hostOps0_7, List.flatten_cons, List.flatten_nil, List.append_nil, List.cons_append, List.nil_append]
    after_results
    rfl
  rw [e]
  rfl

/-- The staged bias row holds, at (0, o), the clipped bias of feature o. -/
theorem bias (c : Dev nD) (o : Fin 4096) :
    (V m c main_v6 : S1x4096.Idx → EReal) (ix2 (0 : Fin 1) o) = clipped (m ((c : Thread nD τ).loc main_arg2) (ix1 o)) := by
  have e : (V m c main_v6 : S1x4096.Idx → EReal)
      = shapeCast S1x4096 (minimumf (broadcastInDim S4096 ![] bcast_S_S4096 (id (constant (F := Ideal) S_ .f32 0x41000000#32)))
          (maximumf (broadcastInDim S4096 ![] bcast_S_S4096 (id (constant (F := Ideal) S_ .f32 0xC1000000#32)))
            (Host.roundeven (m ((c : Thread nD τ).loc main_arg2))))) shapeCasts_S4096_S1x4096 := by
    dsimp only [V]
    simp only [hostOps0, hostOps0_1, hostOps0_2, hostOps0_3, hostOps0_4, hostOps0_5, hostOps0_6, hostOps0_7, List.flatten_cons, List.flatten_nil, List.append_nil, List.cons_append, List.nil_append]
    after_results
    rfl
  rw [e, shapeCast_a_1a_apply]
  rfl

end Cert.KernelIdeal.Entry

end
-- ==== Proof.LibBlockSum.lean ====
/-
  A sum over n * b positions taken as n consecutive runs of b positions (program-independent; imports only Mathlib):
  what joins a matrix product whose contracted axis a kernel walks slice by slice to the one product over the whole
  axis. Stated for any commutative additive monoid, so it holds for the extended reals with no finiteness assumption.
  The case used here: the 4096 positions of the contracted axis as eight consecutive runs of 512.

  Position k of the axis is position q = k mod 512 of run s = k / 512, that is k = 512 s + q; summing run by run, and
  inside each run position by position, visits every position once. Only the commutative-monoid laws of addition are
  used, so the statement holds in the extended reals with no finiteness assumption.
-/
import Mathlib

namespace Cert.BlockSum

/-- A sum over `n * b` positions is the sum over `n` runs of the sums over the `b` positions of each run. -/
theorem sum_runs {β : Type*} [AddCommMonoid β] (n b : ℕ) (f : Fin (n * b) → β) :
    ∑ k : Fin (n * b), f k
      = ∑ s : Fin n, ∑ q : Fin b, f ⟨b * s.val + q.val, by
          have hs := s.isLt; have hq := q.isLt
          calc b * s.val + q.val < b * s.val + b := by omega
            _ = b * (s.val + 1) := by ring
            _ ≤ b * n := Nat.mul_le_mul_left b hs
            _ = n * b := Nat.mul_comm b n⟩ := by
  rw [← Equiv.sum_comp finProdFinEquiv, Fintype.sum_prod_type]
  refine Finset.sum_congr rfl fun s _ => Finset.sum_congr rfl fun q _ => ?_
  refine congrArg f (Fin.ext ?_)
  show q.val + b * s.val = b * s.val + q.val
  exact Nat.add_comm _ _

/-- The contracted axis of 4096 positions as eight runs of 512. -/
theorem sum_eight_runs {β : Type*} [AddCommMonoid β] (f : Fin 4096 → β) :
    ∑ k : Fin 4096, f k = ∑ s : Fin 8, ∑ q : Fin 512, f ⟨512 * s.val + q.val, by have := s.isLt; have := q.isLt; omega⟩ :=
  sum_runs 8 512 f

end Cert.BlockSum
-- ==== Proof.Result.lean ====
/-
  The kernel's result array is the ternary linear layer of its arguments.

  Output block (i, j) is written back once, at the last point t = 16 i + 8 j + 7 of its run. There its entry (p, p')
  is the accumulator's entry plus the bias row's: the sum over the run's eight points s of the inner products over
  the 512 positions q of slice s, plus the clipped bias. Position q of slice s is position 512 s + q of the contracted
  axis, so the eight inner products together are the one inner product over all 4096 positions of row 1024 i + p of
  the activations with row 2048 j + p' of the ternary weights: entry (1024 i + p, 2048 j + p') of the layer.
  The 16 output blocks tile the [8192, 4096] result, so the whole array is the layer's.
-/
import proofs.«117394_j33818572489121_2_alg».proof.Proof.Gen.KernelIdeal.Value
import proofs.«117394_j33818572489121_2_alg».proof.Proof.Fold
import proofs.«117394_j33818572489121_2_alg».proof.Proof.Blocks
import proofs.«117394_j33818572489121_2_alg».proof.Proof.Entry
import proofs.«117394_j33818572489121_2_alg».proof.Proof.LibBlockSum
import proofs.«117394_j33818572489121_2_alg».proof.Proof.TernaryLinear

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays, as arrays of extended reals. -/
abbrev argX (c : Dev nD) : (⟨2, ![8192, 4096]⟩ : Shape).Idx → EReal := m ((c : Thread nD τ).loc main_arg0)
abbrev argW (c : Dev nD) : (⟨2, ![4096, 4096]⟩ : Shape).Idx → EReal := m ((c : Thread nD τ).loc main_arg1)
abbrev argB (c : Dev nD) : (⟨1, ![4096]⟩ : Shape).Idx → EReal := m ((c : Thread nD τ).loc main_arg2)

/-- The layer of the three argument arrays. -/
abbrev layer (c : Dev nD) : (⟨2, ![8192, 4096]⟩ : Shape).Idx → EReal :=
  Cert.TernaryLinear.linear (argX m c) (argW m c) (argB m c)

/-- The partial product of point 8 u + s of a run at entry (p, p'): slice s of the inner product of row r of the
    activations with row o of the ternary weights, when r and o are the rows the entry stands for. -/
theorem addend_eq (c : Dev nD) (t : Fin cfg0.N) (s : Fin 8) (p : Fin 1024) (p' : Fin 2048) (r : Fin 8192) (o : Fin 4096)
    (hr : r.val = 1024 * (t.val / 16) + p.val) (ho : o.val = 2048 * (t.val / 8 % 2) + p'.val) :
    Fold.addend m c (8 * (t.val / 8) + s.val) (ix2 p p')
      = ∑ q : Fin 512, argX m c (ix2 r ⟨512 * s.val + q.val, by have := s.isLt; have := q.isLt; omega⟩)
          * Cert.TernaryLinear.ternary (argW m c (ix2 o ⟨512 * s.val + q.val, by have := s.isLt; have := q.isLt; omega⟩)) := by
  have hN : t.val < 128 := lt_of_lt_of_eq t.isLt N_0
  have hs := s.isLt
  have hn : 8 * (t.val / 8) + s.val < cfg0.N := lt_of_lt_of_eq (by omega : 8 * (t.val / 8) + s.val < 128) N_0.symm
  rw [Fold.addend_of_lt m c _ hn p p']
  refine Finset.sum_congr rfl fun q _ => ?_
  have hq := q.isLt
  have ea := Blocks.activations_block m c ⟨8 * (t.val / 8) + s.val, hn⟩ p q r ⟨512 * s.val + q.val, by omega⟩
    (by show r.val = 1024 * ((8 * (t.val / 8) + s.val) / 16) + p.val; omega)
    (by show 512 * s.val + q.val = 512 * ((8 * (t.val / 8) + s.val) % 8) + q.val; omega)
  have ew := Blocks.weights_block m c ⟨8 * (t.val / 8) + s.val, hn⟩ p' q o ⟨512 * s.val + q.val, by omega⟩
    (by show o.val = 2048 * ((8 * (t.val / 8) + s.val) / 8 % 2) + p'.val; omega)
    (by show 512 * s.val + q.val = 512 * ((8 * (t.val / 8) + s.val) % 8) + q.val; omega)
  have ex := congrFun (Entry.activations m c) (ix2 r ⟨512 * s.val + q.val, by omega⟩)
  have et := Entry.weights m c (ix2 o ⟨512 * s.val + q.val, by omega⟩)
  exact congrArg₂ (fun (a b : EReal) => a * b) (ea.trans ex) (ew.trans et)

/-- An entry of the block written back at the last point of a run is the layer's entry it stands for. -/
theorem block_entry (c : Dev nD) (t : Fin cfg0.N) (h7 : t.val % 8 = 7) (y : S1024x2048.Idx) (i : S8192x4096.Idx)
    (hr : (i 0).val = 1024 * (t.val / 16) + (y 0).val) (ho : (i 1).val = 2048 * (t.val / 8 % 2) + (y 1).val) :
    (outsAt0 m c t.val t.isLt).1 y = layer m c i := by
  obtain ⟨p, p', rfl⟩ : ∃ (p : Fin 1024) (p' : Fin 2048), y = ix2 p p' := ⟨y 0, y 1, eq_ix2 y⟩
  obtain ⟨r, o, rfl⟩ : ∃ (r : Fin 8192) (o : Fin 4096), i = ix2 r o := ⟨i 0, i 1, eq_ix2 i⟩
  have hr' : r.val = 1024 * (t.val / 16) + p.val := hr
  have ho' : o.val = 2048 * (t.val / 8 % 2) + p'.val := ho
  rw [Fold.output_at_last m c t h7 p p', Fold.accumulator_after m c t (ix2 p p'), h7, zero_add, Finset.sum_range]
  show _ = (∑ k : Fin 4096, argX m c (ix2 r k) * Cert.TernaryLinear.ternary (argW m c (ix2 o k)))
    + Cert.TernaryLinear.clipped (argB m c (ix1 o))
  refine congrArg₂ (fun (a b : EReal) => a + b) ?_ ?_
  · rw [BlockSum.sum_eight_runs]
    exact Finset.sum_congr rfl fun s _ => addend_eq m c t s p p' r o hr' ho'
  · exact (Blocks.bias_block m c t p' o ho').trans (Entry.bias m c o)

/-- What a point that writes back writes is its block of the layer. -/
theorem flushed_eq (c : Dev nD) (t : Fin cfg0.N) (hf : (cfg0.win 3).flush t = true) :
    (dats m 0 c).flushed 3 t = ((cfg0.win 3).blk t).view.read (Elt Ideal) (layer m c) := by
  have h7 : t.val % 8 = 7 := (flush0_3 t).mp hf
  obtain ⟨-, -, -, -, -, -, e0, e1⟩ := Blocks.block_indices t
  rw [Value.flushed3]
  funext j
  rw [View.read_apply]
  show (outsAt0 m c t.val t.isLt).1 ((cfg0.win 3).xinj (grid0.coords t) j) = layer m c (((cfg0.win 3).blk t).view.emb j)
  refine block_entry m c t h7 _ _ ?_ ?_
  · show win0_3.index t (0 : Fin 2) * 1024 + 1 * (j 0).val = 1024 * (t.val / 16) + (j 0).val
    rw [e0]; omega
  · show win0_3.index t (1 : Fin 2) * 2048 + 1 * (j 1).val = 2048 * (t.val / 8 % 2) + (j 1).val
    rw [e1]; omega

/-- An index of the result is in point t's block iff each coordinate is in the block's range on its axis. -/
theorem mem_block (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v8).slice (win0_3.rect t)).set ↔ _
  rw [View.set_slice_whole, Rect.mem_set_unit]
  exact Iff.rfl

/-- Every entry of the result is in the block of some point that writes back: entry (n, o) in that of the last point
    of the run of block (n / 1024, o / 2048). -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have ht : 16 * ((i 0).val / 1024) + 8 * ((i 1).val / 2048) + 7 < cfg0.N :=
    lt_of_lt_of_eq (by omega : 16 * ((i 0).val / 1024) + 8 * ((i 1).val / 2048) + 7 < 128) N_0.symm
  obtain ⟨-, -, -, -, -, -, e0, e1⟩ := Blocks.block_indices ⟨16 * ((i 0).val / 1024) + 8 * ((i 1).val / 2048) + 7, ht⟩
  have e0' : win0_3.index ⟨16 * ((i 0).val / 1024) + 8 * ((i 1).val / 2048) + 7, ht⟩ (0 : Fin 2)
      = (16 * ((i 0).val / 1024) + 8 * ((i 1).val / 2048) + 7) / 16 := e0
  have e1' : win0_3.index ⟨16 * ((i 0).val / 1024) + 8 * ((i 1).val / 2048) + 7, ht⟩ (1 : Fin 2)
      = (16 * ((i 0).val / 1024) + 8 * ((i 1).val / 2048) + 7) / 8 % 2 := e1
  refine ⟨⟨16 * ((i 0).val / 1024) + 8 * ((i 1).val / 2048) + 7, ht⟩, (flush0_3 _).mpr (by
    show (16 * ((i 0).val / 1024) + 8 * ((i 1).val / 2048) + 7) % 8 = 7; omega), ?_⟩
  rw [mem_block]
  intro a
  match a with
  | ⟨0, _⟩ =>
    show win0_3.index _ (0 : Fin 2) * 1024 ≤ (i 0).val ∧ (i 0).val < win0_3.index _ (0 : Fin 2) * 1024 + 1024
    rw [e0']; omega
  | ⟨1, _⟩ =>
    show win0_3.index _ (1 : Fin 2) * 2048 ≤ (i 1).val ∧ (i 1).val < win0_3.index _ (1 : Fin 2) * 2048 + 2048
    rw [e1']; omega

/-- The result array after the run. -/
theorem final (c : Dev nD) : (dats m 0 c).arrAt 3 cfg0.N = layer m c :=
  (dats m 0 c).arrAt_eq_of_cover 3 (layer m c) (flushed_eq m c) cover

/-- Every weakly fair execution of the kernel's program ends with the result array at the layer of the arguments,
    the arguments unchanged. -/
theorem run : θ_run defs (onTc (τ := τ) (main (F := Ideal))) ⟨m, fun _ => 0, ρ⟩ fun r => ∀ c : Dev nD,
      r.2.mem ((c : Thread nD τ).loc main_v8) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefValue.lean ====
/-
  The reference computes the ternary linear layer.

  Its general product contracts the second axis of both operands, so entry (n, o) of the product is the inner product
  of row n of the activations with row o of the ternary weights; the bias, rounded and clipped, is broadcast along
  the rows and added.
-/
import proofs.«117394_j33818572489121_2_alg».proof.Proof.Gen.ReferenceIdeal.Read
import proofs.«117394_j33818572489121_2_alg».proof.Proof.TernaryLinear

noncomputable section

namespace Cert.ReferenceIdeal.RefValue

open Cert.ReferenceIdeal Cert.ReferenceIdeal.Gen Cert.ReferenceIdeal.Read Idealize.ShloMosaic Idealize.ShloMosaic.ValueIdx
open Cert.TernaryLinear

/-- The reference's weights stage is the ternary map, entry by entry. -/
theorem weights_apply (x1 : (⟨S4096x4096, .f32⟩ : BufTy).Contents (Elt Ideal)) (j : S4096x4096.Idx) :
    val_main_v2 (F := Ideal) x1 j = ternary (x1 j) := by
  rw [val_main_v2_apply, val_main_call1_v4_apply, val_main_call1_v2_apply, val_main_call1_v1_apply]
  rfl

/-- The reference's bias stage is the clipping map, entry by entry. -/
theorem bias_apply (x2 : (⟨S4096, .f32⟩ : BufTy).Contents (Elt Ideal)) (j : S4096.Idx) :
    val_main_v4 (F := Ideal) x2 j = clipped (x2 j) := by
  rw [val_main_v4_apply, val_main_call3_v4_apply, val_main_call3_v2_apply, val_main_call3_v1_apply]
  rfl

/-- The reference's result is the layer's function of its three arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v8 (F := Ideal) x0 x1 x2 = linear x0 x1 x2 := by
  funext i
  obtain ⟨n, o, rfl⟩ : ∃ (n : Fin 8192) (o : Fin 4096), i = ix2 n o := ⟨i 0, i 1, eq_ix2 i⟩
  have el : ∀ k : Fin 4096, lidx_main_v5 (ix2 n o) k = ix2 n k := fun k => funext fun a => Fin.ext (by
    match a with
    | ⟨0, _⟩ => rfl
    | ⟨1, _⟩ => rfl)
  have er : ∀ k : Fin 4096, ridx_main_v5 (ix2 n o) k = ix2 o k := fun k => funext fun a => Fin.ext (by
    match a with
    | ⟨0, _⟩ => rfl
    | ⟨1, _⟩ => rfl)
  have eb : idx_main_v6 (idx_main_v7 (ix2 n o)) = ix1 o := funext fun a => Fin.ext (by
    match a with
    | ⟨0, _⟩ => rfl)
  rw [val_main_v8_apply, val_main_v5_apply, val_main_v7_apply, val_main_v6_apply, eb, bias_apply]
  show _ = (∑ k : Fin 4096, x0 (ix2 n k) * ternary (x1 (ix2 o k))) + clipped (x2 (ix1 o))
  refine congrArg (· + clipped (x2 (ix1 o))) ?_
  refine Finset.sum_congr rfl fun k _ => ?_
  rw [el, er, weights_apply]

end Cert.ReferenceIdeal.RefValue

end
-- ==== Proof.lean ====
/-
  A linear layer with hard-ternary weights: the tiled kernel against its one-line reference, at the ideal values.

  Both programs first make the weights ternary, entry by entry ( min(1, max(-1, sign(round w))) ), and round and clip
  the bias to [-8, 8]; the literals are the same four words on both sides. The reference then contracts the whole
  4096-long axis in one general product and adds the bias. The kernel converts its operands to bfloat16 (the identity
  at the ideal values), walks a grid of 8 x 2 output blocks of 1024 x 2048 entries, and for each block walks the
  contracted axis in eight slices of 512 positions: an accumulator block is zeroed at the first slice, each slice's
  partial product is added to it, and at the last slice the accumulator plus the bias row is stored to the output.

  The two results are equal entry by entry because a sum over 4096 positions may be taken as eight runs of 512:
  only associativity and commutativity of addition of extended reals are used, which hold without any finiteness
  assumption, so the precondition is never opened. The chain of facts:
    * Pieces, Payload: what each control case stores, read at an entry;
    * Fold: the accumulator after a grid point is the sum of the partial products of its run so far;
    * Blocks, Entry: where a block's entries sit in the arrays, and what the arrays hold at the launch;
    * LibBlockSum: eight runs of 512 are the 4096 positions;
    * Result: the kernel's result array is the layer of its arguments;  RefValue: so is the reference's.
  The kernel has no rewritten operation, so the idealized kernel is the kernel's own text read at the ideal values.
-/
import proofs.«117394_j33818572489121_2_alg».proof.Defs
import proofs.«117394_j33818572489121_2_alg».proof.Proof.Gen.Kernel
import proofs.«117394_j33818572489121_2_alg».proof.Proof.Gen.Kernel.Skeleton
import proofs.«117394_j33818572489121_2_alg».proof.Proof.Gen.Kernel.Launch
import proofs.«117394_j33818572489121_2_alg».proof.Proof.Gen.Kernel.Points
import proofs.«117394_j33818572489121_2_alg».proof.Proof.Gen.Kernel.Frame
import proofs.«117394_j33818572489121_2_alg».proof.Proof.Gen.KernelIdeal
import proofs.«117394_j33818572489121_2_alg».proof.Proof.Gen.KernelIdeal.Skeleton
import proofs.«117394_j33818572489121_2_alg».proof.Proof.Gen.KernelIdeal.Launch
import proofs.«117394_j33818572489121_2_alg».proof.Proof.Gen.KernelIdeal.Points
import proofs.«117394_j33818572489121_2_alg».proof.Proof.Gen.KernelIdeal.Frame
import proofs.«117394_j33818572489121_2_alg».proof.Proof.Gen.ReferenceIdeal
import proofs.«117394_j33818572489121_2_alg».proof.Proof.Gen.KernelIdeal.Value
import proofs.«117394_j33818572489121_2_alg».proof.Proof.Gen.ReferenceIdeal.Run
import proofs.«117394_j33818572489121_2_alg».proof.Proof.Gen.ReferenceIdeal.Read
import proofs.«117394_j33818572489121_2_alg».proof.Proof.Gen.Pre_finite_inputs
import proofs.«117394_j33818572489121_2_alg».proof.Proof.Result
import proofs.«117394_j33818572489121_2_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten: nothing to preserve. -/
theorem preserves : Cert.preserves_Kernel_KernelIdeal := trivial

/-- From memories that agree on the three arguments both programs end with the layer of those arguments. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
